-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x64 : Shape := ⟨2, ![64, 64]⟩
abbrev S1x64 : Shape := ⟨2, ![1, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S64x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x64 .f32) (main_arg1 : FVec F S64x64 .f32) (main_arg2 : FVec F S64x64 .f32) (main_arg3 : FVec F S1x64 .f32) (main_arg4 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x64 : Shape := ⟨2, ![16384, 64]⟩
abbrev S64x64 : Shape := ⟨2, ![64, 64]⟩
abbrev S1x64 : Shape := ⟨2, ![1, 64]⟩
abbrev S64x16384 : Shape := ⟨2, ![64, 16384]⟩
abbrev S64x8192 : Shape := ⟨2, ![64, 8192]⟩
abbrev S64x1 : Shape := ⟨2, ![64, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S1x64, .f32⟩
  | .hbm, ⟨4, _⟩ => ⟨S64x64, .f32⟩
  | .hbm, ⟨5, _⟩ => ⟨S64x16384, .f32⟩
  | .hbm, ⟨6, _⟩ => ⟨S64x16384, .f32⟩
  | .hbm, ⟨7, _⟩ => ⟨S16384x64, .f32⟩
  | .local _ .vmem, ⟨0, _⟩ => ⟨S64x8192, .f32⟩
  | .local _ .vmem, ⟨1, _⟩ => ⟨S64x8192, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S64x8192, .f32⟩
  | .local _ .vmem, ⟨7, _⟩ => ⟨S64x8192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x64_S64x16384_1_0 : S16384x64.Transposes [1, 0] S64x16384
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  broadcasts_S64x1_S64x64 : S64x1.Broadcasts S64x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  transposes_S64x16384_S16384x64_1_0 : S64x16384.Transposes [1, 0] S16384x64
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x16384.size a
  hwx0_0 : ∀ i : grid0.Coords, EltTy.bits .f32 = 32 ∨ (Rect.block (s := S64x16384) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8192.size a ≤ S64x16384.size a
  hwx0_5 : ∀ i : grid0.Coords, EltTy.bits .f32 = 32 ∨ (Rect.block (s := S64x16384) S64x8192.size (cc0_transform_5 i) (hinb0_5 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S64x64 : Shape := ⟨2, ![64, 64]⟩
abbrev S1x64 : Shape := ⟨2, ![1, 64]⟩
abbrev S64x16384 : Shape := ⟨2, ![64, 16384]⟩
abbrev S_ : Shape := ⟨0, ![]⟩
abbrev S64x1 : Shape := ⟨2, ![64, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S1x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x16384, .f32⟩
  | .hbm, ⟨8, _⟩ => ⟨S64x16384, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | .hbm, ⟨13, _⟩ => ⟨S64x64, .f32⟩
  | .hbm, ⟨14, _⟩ => ⟨S64x64, .f32⟩
  | .hbm, ⟨15, _⟩ => ⟨S64x16384, .f32⟩
  | .hbm, ⟨16, _⟩ => ⟨S64x16384, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S64x1, .f32⟩
  | .hbm, ⟨22, _⟩ => ⟨S64x64, .f32⟩
  | .hbm, ⟨23, _⟩ => ⟨S64x64, .f32⟩
  | .hbm, ⟨24, _⟩ => ⟨S64x16384, .f32⟩
  | .hbm, ⟨25, _⟩ => ⟨S64x16384, .f32⟩
  | .hbm, ⟨26, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S64x64_S64x64_1_0 : S64x64.Transposes [1, 0] S64x64
  transposes_S16384x64_S64x16384_1_0 : S16384x64.Transposes [1, 0] S64x16384
  transposes_S64x16384_S16384x64_1_0 : S64x16384.Transposes [1, 0] S16384x64
  bcast_S_S16384x64 : S_.BroadcastsInDim S16384x64 (![] : Fin 0 → Fin S16384x64.rank)
  transposes_S1x64_S64x1_1_0 : S1x64.Transposes [1, 0] S64x1
  bcast_S64x1_S64x64_0_1 : S64x1.BroadcastsInDim S64x64 (![0, 1] : Fin 2 → Fin S64x64.rank)
  dot_S64x64_S64x16384_S64x16384_1_0_0_1_n_n_wf : DotDims.WF S64x64 S64x16384 S64x16384 [1] [0] [0] [1] [] []

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

class Facts : Prop extends Facts₀ where

variable [Facts]
-- ==== Proof.MaskedLayers.lean ====
/-
  Three masked linear layers with two rectifiers, as a function of one input row.

  The weights of layer n are the entrywise product of a shared 64 × 64 mask with the transposed weight matrix
  (for the last layer: with a 1 × 64 row of weights, one weight per OUTPUT feature, repeated along the mask's
  columns).  A row x of 64 inputs goes to

      h₁ l = max (∑ i, (mask l i · W₁ i l) · x i) 0
      h₂ k = max (∑ l, (mask k l · W₂ l k) · h₁ l) 0
      out j = ∑ k, (mask j k · W₃ 0 j) · h₂ k

  over the extended reals.  Each output row depends on its own input row only, so the whole result can be laid out
  with the batch axis first (`byRows`) or with the feature axis first (`byColumns`); the two layouts are
  transposes of one another (`transpose_byColumns`).
-/
import Idealize.ShloMosaic.PureOps.Ideal
import Idealize.ShloMosaic.Lib.ValueIdx
import Idealize.ShloMosaic.Lib.Pipeline.Value

noncomputable section

open scoped BigOperators

namespace Cert.MaskedLayers

open Idealize.ShloMosaic Idealize.ShloMosaic.ValueIdx

/-- A 64 × 64 array of extended reals: a weight matrix, or the mask. -/
abbrev Sq : Type := (⟨2, ![64, 64]⟩ : Shape).Idx → EReal
/-- A 1 × 64 array of extended reals: the last layer's weights. -/
abbrev Row : Type := (⟨2, ![1, 64]⟩ : Shape).Idx → EReal

/-- The first hidden layer at feature `l`, of one input row. -/
def hidden1 (w1 mask : Sq) (row : Fin 64 → EReal) (l : Fin 64) : EReal :=
  max (∑ i : Fin 64, (mask (ix2 l i) * w1 (ix2 i l)) * row i) 0

/-- The second hidden layer at feature `k`, of one input row. -/
def hidden2 (w1 w2 mask : Sq) (row : Fin 64 → EReal) (k : Fin 64) : EReal :=
  max (∑ l : Fin 64, (mask (ix2 k l) * w2 (ix2 l k)) * hidden1 w1 mask row l) 0

/-- The output at feature `j`, of one input row. -/
def out (w1 w2 : Sq) (w3 : Row) (mask : Sq) (row : Fin 64 → EReal) (j : Fin 64) : EReal :=
  ∑ k : Fin 64, (mask (ix2 j k) * w3 (ix2 (0 : Fin 1) j)) * hidden2 w1 w2 mask row k

/-- The output depends on its arguments only. -/
theorem out_congr {w1 w1' w2 w2' : Sq} {w3 w3' : Row} {mask mask' : Sq} {row row' : Fin 64 → EReal} {j j' : Fin 64}
    (h1 : w1 = w1') (h2 : w2 = w2') (h3 : w3 = w3') (hm : mask = mask') (hr : row = row') (hj : j = j') :
    out w1 w2 w3 mask row j = out w1' w2' w3' mask' row' j' := by
  subst h1 h2 h3 hm hr hj; rfl

/-- The whole result with the batch axis first: entry (b, j) is output feature j of input row b. -/
def byRows (x : (⟨2, ![16384, 64]⟩ : Shape).Idx → EReal) (w1 w2 : Sq) (w3 : Row) (mask : Sq) :
    (⟨2, ![16384, 64]⟩ : Shape).Idx → EReal :=
  fun i => out w1 w2 w3 mask (fun a => x (ix2 (i 0) a)) (i 1)

/-- The whole result with the feature axis first, of the input laid out the same way: entry (j, b) is output
    feature j of the input's column b. -/
def byColumns (xt : (⟨2, ![64, 16384]⟩ : Shape).Idx → EReal) (w1 w2 : Sq) (w3 : Row) (mask : Sq) :
    (⟨2, ![64, 16384]⟩ : Shape).Idx → EReal :=
  fun i => out w1 w2 w3 mask (fun a => xt (ix2 a (i 1))) (i 0)

/-- Transposing the input, computing feature-first, and transposing back is computing batch-first. -/
theorem transpose_byColumns (x : (⟨2, ![16384, 64]⟩ : Shape).Idx → EReal) (w1 w2 : Sq) (w3 : Row) (mask : Sq)
    (h : (⟨2, ![16384, 64]⟩ : Shape).Transposes [1, 0] ⟨2, ![64, 16384]⟩)
    (h' : (⟨2, ![64, 16384]⟩ : Shape).Transposes [1, 0] ⟨2, ![16384, 64]⟩) :
    transpose ⟨2, ![16384, 64]⟩ [1, 0] (byColumns (transpose ⟨2, ![64, 16384]⟩ [1, 0] x h) w1 w2 w3 mask) h'
      = byRows x w1 w2 w3 mask := by
  funext i
  obtain ⟨b, j, rfl⟩ : ∃ (b : Fin 16384) (j : Fin 64), i = ix2 b j := ⟨i 0, i 1, eq_ix2 i⟩
  refine (transpose_apply [1, 0] _ h' (ix2 b j) (ix2 j b) (fun a => match a with
    | ⟨0, _⟩ => rfl
    | ⟨1, _⟩ => rfl)).trans ?_
  unfold byColumns byRows
  refine out_congr rfl rfl rfl rfl (funext fun a => ?_) rfl
  exact transpose_apply [1, 0] x h (ix2 a b) (ix2 b a) (fun a => match a with
    | ⟨0, _⟩ => rfl
    | ⟨1, _⟩ => rfl)

end Cert.MaskedLayers

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«130894_g27573690040596_cont_9to1_2209_8_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibDenseLayerEntry.lean ====
/-
  The operations of a dense layer, each read at one entry, over the extended reals.

  * A two-axis array transposed, read at (p, q), is the array at (q, p).
  * A plain matrix product [M, K] × [K, N] accumulated into the zero array, read at (p, q), is the textbook sum
    over i of left (p, i) times right (i, q).
  * The entrywise maximum with the splat of the zero word, read at an entry, is the maximum with 0.
  * Two indices of a two-axis array are equal when their coordinates are.
-/
import Idealize.ShloMosaic.PureOps.Ideal
import Idealize.ShloMosaic.PureOps.Ideal.Laws
import Idealize.ShloMosaic.Lib.ValueIdx
import Idealize.ShloMosaic.Lib.Pipeline.Value
import proofs.«130894_g27573690040596_cont_9to1_2209_8_alg».proof.Proof.LibPlainDot

noncomputable section

open scoped BigOperators

namespace Cert.LibDenseLayerEntry

open Idealize.ShloMosaic Idealize.ShloMosaic.ValueIdx

/-- Two indices of a two-axis array are equal when their two coordinates are equal as numbers. -/
theorem idx2_ext {n0 n1 : ℕ} {f g : (⟨2, ![n0, n1]⟩ : Shape).Idx} (h0 : (f 0).val = (g 0).val)
    (h1 : (f 1).val = (g 1).val) : f = g :=
  funext fun a => Fin.ext (by
    match a with
    | ⟨0, _⟩ => exact h0
    | ⟨1, _⟩ => exact h1)

/-- An [a, b] array transposed to [b, a], read at (p, q), is the array at (q, p). -/
theorem transpose2_apply {α : Type} {a b : ℕ} (v : (⟨2, ![a, b]⟩ : Shape).Idx → α)
    (h : (⟨2, ![a, b]⟩ : Shape).Transposes [1, 0] ⟨2, ![b, a]⟩) (p : Fin b) (q : Fin a) :
    transpose ⟨2, ![b, a]⟩ [1, 0] v h (ix2 p q) = v (ix2 q p) :=
  transpose_apply [1, 0] v h (ix2 p q) (ix2 q p) (fun ax => match ax with
    | ⟨0, _⟩ => rfl
    | ⟨1, _⟩ => rfl)

/-- A plain matrix product accumulated into the zero array, read at (p, q): the sum over i of left (p, i) times
    right (i, q). -/
theorem matmul_zero_apply {M K N : ℕ} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ i : Fin K, L (ix2 p i) * R (ix2 i q) :=
  (Ideal.matmul_constant_zero_apply D prec L R (ix2 p q)).trans
    (Cert.LibPlainDot.sum_plain D hlc hrc hlb hrb hln hrn L R p q)

/-- The entrywise maximum with the splat of the zero word, at an entry: the maximum with 0. -/
theorem max_zero_splat_apply {s : Shape} (X : FVec Ideal s .f32) (i : s.Idx) :
    maximumf X (broadcast s (Scalar.ofBits (F := Ideal) .f32 0x00000000#32)) i = max (X i) 0 := by
  show max (X i) (Ideal.ofBits .f32 0x00000000#32) = _
  rw [Ideal.ofBits_zero_f32]

end Cert.LibDenseLayerEntry

end
-- ==== Proof.ReferenceLayers.lean ====
/-
  What the reference computes, read at one entry.

  The reference works batch-first but forms every matrix product feature-first: it multiplies the mask into each
  transposed weight matrix, transposes the activations, multiplies, transposes back and takes the maximum with
  zero.  Read at an entry, every transpose only swaps the two coordinates, so entry (b, j) of the result is output
  feature j of the three masked layers applied to input row b.
-/
import proofs.«130894_g27573690040596_cont_9to1_2209_8_alg».proof.Proof.Gen.ReferenceIdeal.Read
import proofs.«130894_g27573690040596_cont_9to1_2209_8_alg».proof.Proof.MaskedLayers
import proofs.«130894_g27573690040596_cont_9to1_2209_8_alg».proof.Proof.LibDenseLayerEntry

noncomputable section

open scoped BigOperators

namespace Cert.ReferenceLayers

open Cert.ReferenceIdeal Cert.ReferenceIdeal.Read Idealize.ShloMosaic Idealize.ShloMosaic.ValueIdx
open Cert.MaskedLayers Cert.LibDenseLayerEntry

variable (x0 : (⟨S16384x64, .f32⟩ : BufTy).Contents (Elt Ideal)) (x1 x2 x4 : (⟨S64x64, .f32⟩ : BufTy).Contents (Elt Ideal))
  (x3 : (⟨S1x64, .f32⟩ : BufTy).Contents (Elt Ideal))

/-- The first rectifier's zero array is 0 everywhere. -/
theorem zero_first (i : S16384x64.Idx) : val_main_call0_v0 (F := Ideal) i = 0 := by
  rw [val_main_call0_v0_apply, val_main_call0_cst_apply]
  exact Ideal.ofBits_zero_f32

/-- The second rectifier's zero array is 0 everywhere. -/
theorem zero_second (i : S16384x64.Idx) : val_main_call1_v0 (F := Ideal) i = 0 := by
  rw [val_main_call1_v0_apply, val_main_call1_cst_apply]
  exact Ideal.ofBits_zero_f32

/-- The first layer's weights at (l, i): the mask there times W₁ at (i, l). -/
theorem weights1_apply (l i : Fin 64) : val_main_v1 (F := Ideal) x1 x4 (ix2 l i) = x4 (ix2 l i) * x1 (ix2 i l) := by
  rw [val_main_v1_apply, val_main_v0_apply, show idx_main_v0 (ix2 l i) = ix2 i l from idx2_ext rfl rfl]
  rfl

/-- The second layer's weights at (k, l): the mask there times W₂ at (l, k). -/
theorem weights2_apply (k l : Fin 64) : val_main_v7 (F := Ideal) x2 x4 (ix2 k l) = x4 (ix2 k l) * x2 (ix2 l k) := by
  rw [val_main_v7_apply, val_main_v6_apply, show idx_main_v6 (ix2 k l) = ix2 l k from idx2_ext rfl rfl]
  rfl

/-- The last layer's weights at (j, k): the mask there times the weight of output feature j. -/
theorem weights3_apply (j k : Fin 64) :
    val_main_v14 (F := Ideal) x3 x4 (ix2 j k) = x4 (ix2 j k) * x3 (ix2 (0 : Fin 1) j) := by
  rw [val_main_v14_apply, val_main_v13_apply, val_main_v12_apply,
    show idx_main_v12 (idx_main_v13 (ix2 j k)) = ix2 (0 : Fin 1) j from idx2_ext rfl rfl]
  rfl

/-- The first hidden layer at (b, l): the first hidden layer of input row b at feature l. -/
theorem hidden1_apply (b : Fin 16384) (l : Fin 64) :
    val_main_v5 (F := Ideal) x0 x1 x4 (ix2 b l) = hidden1 x1 x4 (fun a => x0 (ix2 b a)) l := by
  rw [val_main_v5_apply, zero_first, val_main_v4_apply,
    show idx_main_v4 (ix2 b l) = ix2 l b from idx2_ext rfl rfl, val_main_v3_apply]
  unfold hidden1
  refine congrArg (max · 0) (Finset.sum_congr rfl fun i _ => ?_)
  rw [show lidx_main_v3 (ix2 l b) i = ix2 l i from idx2_ext rfl rfl,
    show ridx_main_v3 (ix2 l b) i = ix2 i b from idx2_ext rfl rfl, weights1_apply, val_main_v2_apply,
    show idx_main_v2 (ix2 i b) = ix2 b i from idx2_ext rfl rfl]

/-- The second hidden layer at (b, k): the second hidden layer of input row b at feature k. -/
theorem hidden2_apply (b : Fin 16384) (k : Fin 64) :
    val_main_v11 (F := Ideal) x0 x1 x2 x4 (ix2 b k) = hidden2 x1 x2 x4 (fun a => x0 (ix2 b a)) k := by
  rw [val_main_v11_apply, zero_second, val_main_v10_apply,
    show idx_main_v10 (ix2 b k) = ix2 k b from idx2_ext rfl rfl, val_main_v9_apply]
  unfold hidden2
  refine congrArg (max · 0) (Finset.sum_congr rfl fun l _ => ?_)
  rw [show lidx_main_v9 (ix2 k b) l = ix2 k l from idx2_ext rfl rfl,
    show ridx_main_v9 (ix2 k b) l = ix2 l b from idx2_ext rfl rfl, weights2_apply, val_main_v8_apply,
    show idx_main_v8 (ix2 l b) = ix2 b l from idx2_ext rfl rfl, hidden1_apply]

/-- THE REFERENCE'S RESULT is the three masked layers applied row by row. -/
theorem result_eq : val_main_v17 (F := Ideal) x0 x1 x2 x3 x4 = byRows x0 x1 x2 x3 x4 := by
  funext i
  obtain ⟨b, j, rfl⟩ : ∃ (b : Fin 16384) (j : Fin 64), i = ix2 b j := ⟨i 0, i 1, eq_ix2 i⟩
  rw [val_main_v17_apply, show idx_main_v17 (ix2 b j) = ix2 j b from idx2_ext rfl rfl, val_main_v16_apply]
  unfold byRows out
  refine Finset.sum_congr rfl fun k _ => ?_
  rw [show lidx_main_v16 (ix2 j b) k = ix2 j k from idx2_ext rfl rfl,
    show ridx_main_v16 (ix2 j b) k = ix2 k b from idx2_ext rfl rfl, weights3_apply, val_main_v15_apply,
    show idx_main_v15 (ix2 k b) = ix2 b k from idx2_ext rfl rfl, hidden2_apply]

end Cert.ReferenceLayers

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelBlock.lean ====
/-
  What the kernel's body stores, read at one entry of its output block.

  The body works feature-first on a block of 8192 input columns.  It forms the three weight matrices from the
  mask — mask · W₁ᵀ, mask · W₂ᵀ, and mask times the column W₃ᵀ repeated along the rows —, multiplies the block by
  the first into a zero accumulator, takes the maximum with zero, multiplies by the second, takes the maximum
  with zero, and multiplies by the third.  Column b of the result depends on column b of the block only: entry
  (j, b) is output feature j of the three masked layers applied to that column.
-/
import proofs.«130894_g27573690040596_cont_9to1_2209_8_alg».proof.Proof.Gen.KernelIdeal.Skeleton
import proofs.«130894_g27573690040596_cont_9to1_2209_8_alg».proof.Proof.MaskedLayers
import proofs.«130894_g27573690040596_cont_9to1_2209_8_alg».proof.Proof.LibDenseLayerEntry
import proofs.«130894_g27573690040596_cont_9to1_2209_8_alg».proof.Proof.LibColumnBroadcast

noncomputable section

open scoped BigOperators

namespace Cert.KernelBlock

open Cert.KernelIdeal Cert.KernelIdeal.Gen Idealize.ShloMosaic Idealize.ShloMosaic.ValueIdx
open Cert.MaskedLayers Cert.LibDenseLayerEntry

/-- The mask times a transposed square weight matrix. -/
def weights (mask w : Vec Ideal S64x64 .f32) : FVec Ideal S64x64 .f32 :=
  mulf mask (transpose S64x64 [1, 0] w transposes_S64x64_p1_0_S64x64)

/-- The mask times the last layer's weights, turned into a column and repeated along the rows. -/
def weights3 (mask : Vec Ideal S64x64 .f32) (w3 : Vec Ideal S1x64 .f32) : FVec Ideal S64x64 .f32 :=
  mulf mask (broadcastTo S64x64 (transpose S64x1 [1, 0] w3 transposes_S1x64_p1_0_S64x1) broadcasts_S64x1_S64x64)

/-- A weight matrix times a block, into the zero accumulator. -/
def layer (c : FVec Ideal S64x64 .f32) (h : FVec Ideal S64x8192 .f32) : FVec Ideal S64x8192 .f32 :=
  matmul dot_S64x64_S64x8192_S64x8192_1_0_0_1_n_n none c h (constant S64x8192 .f32 0x00000000#32)

/-- The entrywise maximum with zero. -/
def rectify (h : FVec Ideal S64x8192 .f32) : FVec Ideal S64x8192 .f32 :=
  maximumf h (broadcast S64x8192 (Scalar.ofBits (F := Ideal) .f32 0x00000000#32))

/-- The body's stored value is the three layers composed. -/
theorem payload_eq (v0 v1 v4 : Vec Ideal S64x64 .f32) (v7 : Vec Ideal S1x64 .f32) (v11 : Vec Ideal S64x8192 .f32) :
    k0_pay1 (F := Ideal) v0 v1 v4 v7 v11
      = layer (weights3 v0 v7) (rectify (layer (weights v0 v4) (rectify (layer (weights v0 v1)
          (shapeCast S64x8192 v11 shapeCasts_S64x8192_S64x8192))))) := rfl

/-- Entry (l, i) of a square layer's weights: the mask there times the weight matrix at (i, l). -/
theorem weights_apply (mask w : Vec Ideal S64x64 .f32) (l i : Fin 64) :
    weights mask w (ix2 l i) = mask (ix2 l i) * w (ix2 i l) := by
  unfold weights
  rw [mulf_apply, transpose2_apply]

/-- Entry (j, k) of the last layer's weights: the mask there times the weight of output feature j. -/
theorem weights3_apply (mask : Vec Ideal S64x64 .f32) (w3 : Vec Ideal S1x64 .f32) (j k : Fin 64) :
    weights3 mask w3 (ix2 j k) = mask (ix2 j k) * w3 (ix2 (0 : Fin 1) j) := by
  unfold weights3
  rw [mulf_apply, Cert.Lib.broadcastTo_a1_ab_apply, transpose2_apply]

/-- Entry (p, q) of a layer: the sum over i of the weights at (p, i) times the block at (i, q). -/
theorem layer_apply (c : FVec Ideal S64x64 .f32) (h : FVec Ideal S64x8192 .f32) (p : Fin 64) (q : Fin 8192) :
    layer c h (ix2 p q) = ∑ i : Fin 64, c (ix2 p i) * h (ix2 i q) := by
  unfold layer
  exact matmul_zero_apply dot_S64x64_S64x8192_S64x8192_1_0_0_1_n_n rfl rfl rfl rfl rfl rfl none c h p q

/-- An entry of the rectified array: the maximum with 0. -/
theorem rectify_apply (h : FVec Ideal S64x8192 .f32) (i : S64x8192.Idx) : rectify h i = max (h i) 0 := by
  unfold rectify
  exact max_zero_splat_apply h i

/-- The first hidden layer of the block, at (l, b): the first hidden layer of column b at feature l. -/
theorem hidden1_block (mask w1 : Vec Ideal S64x64 .f32) (x : Vec Ideal S64x8192 .f32) (l : Fin 64) (b : Fin 8192) :
    rectify (layer (weights mask w1) (shapeCast S64x8192 x shapeCasts_S64x8192_S64x8192)) (ix2 l b)
      = hidden1 w1 mask (fun a => x (ix2 a b)) l := by
  rw [rectify_apply, layer_apply, shapeCast_self]
  unfold hidden1
  refine congrArg (max · 0) (Finset.sum_congr rfl fun i _ => ?_)
  rw [weights_apply]

/-- The second hidden layer of the block, at (k, b): the second hidden layer of column b at feature k. -/
theorem hidden2_block (mask w1 w2 : Vec Ideal S64x64 .f32) (x : Vec Ideal S64x8192 .f32) (k : Fin 64) (b : Fin 8192) :
    rectify (layer (weights mask w2) (rectify (layer (weights mask w1)
        (shapeCast S64x8192 x shapeCasts_S64x8192_S64x8192)))) (ix2 k b)
      = hidden2 w1 w2 mask (fun a => x (ix2 a b)) k := by
  rw [rectify_apply, layer_apply]
  unfold hidden2
  refine congrArg (max · 0) (Finset.sum_congr rfl fun l _ => ?_)
  rw [weights_apply, hidden1_block]

/-- THE BLOCK AT (j, b): output feature j of the three masked layers applied to column b of the input block. -/
theorem block_apply (v0 v1 v4 : Vec Ideal S64x64 .f32) (v7 : Vec Ideal S1x64 .f32) (v11 : Vec Ideal S64x8192 .f32)
    (j : Fin 64) (b : Fin 8192) :
    k0_pay1 (F := Ideal) v0 v1 v4 v7 v11 (ix2 j b) = out v1 v4 v7 v0 (fun a => v11 (ix2 a b)) j := by
  rw [payload_eq, layer_apply]
  unfold out
  refine Finset.sum_congr rfl fun k _ => ?_
  rw [weights3_apply, hidden2_block]

/-- The same at any index of the block, by its coordinates. -/
theorem block_entry (v0 v1 v4 : Vec Ideal S64x64 .f32) (v7 : Vec Ideal S1x64 .f32) (v11 : Vec Ideal S64x8192 .f32)
    (y : S64x8192.Idx) :
    k0_pay1 (F := Ideal) v0 v1 v4 v7 v11 y = out v1 v4 v7 v0 (fun a => v11 (ix2 a (y 1))) (y 0) := by
  obtain ⟨j, b, rfl⟩ : ∃ (j : Fin 64) (b : Fin 8192), y = ix2 j b := ⟨y 0, y 1, eq_ix2 y⟩
  exact block_apply v0 v1 v4 v7 v11 j b

end Cert.KernelBlock

end
-- ==== Proof.KernelArray.lean ====
/-
  The kernel's result array, from its blocks.

  The program transposes the input to feature-first, runs the body on two blocks of 8192 columns, and transposes the
  result back.  Grid point t reads columns [8192·t, 8192·t + 8192) of the transposed input and all of the four small
  arrays, and writes the same columns of the feature-first result; since a result column depends on its own input
  column only, what each point writes back is its block of ONE whole array, `byColumns` of the transposed input.
  The two blocks tile that array, so the array ends holding it, and the final transpose gives `byRows` of the input.
-/
import proofs.«130894_g27573690040596_cont_9to1_2209_8_alg».proof.Proof.Gen.KernelIdeal.Frame
import proofs.«130894_g27573690040596_cont_9to1_2209_8_alg».proof.Proof.KernelBlock
import Idealize.ShloMosaic.Lib.Pipeline.Value
import Idealize.ShloMosaic.Lib.StableHlo.Run

set_option maxRecDepth 16384

noncomputable section

namespace Cert.KernelArray

open Cert.KernelIdeal Cert.KernelIdeal.Gen Idealize.ShloMosaic Idealize.ShloMosaic.TcCoe Idealize.ShloMosaic.ValueIdx
open Idealize.SL Idealize.SL.Sem Idealize.ShloMosaic.StableHlo
open Cert.MaskedLayers

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the grid: the four small arrays are read whole at every point; the input's block and the
    result's block sit at row block 0 and at the same column block, which is 0 or 1. -/
theorem block_indices : ∀ t : Fin cfg0.N,
    win0_0.index t (0 : Fin 2) = 0 ∧ win0_0.index t (1 : Fin 2) = win0_5.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 1 :=
  (by decide +kernel : ∀ t : Fin grid0.N, _)

/-- Each column block of the result is some point's. -/
theorem block_onto : ∀ q : Fin 2, ∃ t : Fin cfg0.N, win0_5.index t = ![0, q.val] :=
  (by decide +kernel : ∀ q : Fin 2, ∃ t : Fin grid0.N, win0_5.index t = ![0, q.val])

/-- The feature-first result as a function of the arrays the region finds. -/
abbrev resultT (c : Dev nD) : S64x16384.Idx → EReal :=
  byColumns (V m c main_v0) (V m c main_arg1) (V m c main_arg2) (V m c main_arg3) (V m c main_arg4)

/-- WHAT POINT `t` WRITES BACK is its block of the feature-first result. -/
theorem flushed_eq (c : Dev nD) (t : Fin cfg0.N) :
    (dats m 0 c).flushed 5 t = ((cfg0.win 5).blk t).view.read (Elt Ideal) (resultT m c) := by
  show (cfg0.win 5).cut (grid0.coords t) ((dats m 0 c).after 5 t) = _
  rw [after0_5]
  unfold out0_5
  rw [View.canon_unit_zero zero_offsets]
  simp only [View.ld_unit_zero (S := S64x64) zero_offsets, View.ld_unit_zero (S := S1x64) zero_offsets,
    View.ld_unit_zero (S := S64x8192) zero_offsets]
  obtain ⟨e00, e01, e10, e11, e20, e21, e30, e31, e40, e41, e50, e51⟩ := block_indices t
  funext y
  show k0_pay1 (F := Ideal) (iblk m c 4 t) (iblk m c 1 t) (iblk m c 2 t) (iblk m c 3 t) (iblk m c 0 t) y
    = resultT m c (((cfg0.win 5).blk t).view.emb y)
  refine (Cert.KernelBlock.block_entry _ _ _ _ _ y).trans ?_
  unfold resultT byColumns
  have hy0 : (y 0).val < 64 := (y 0).isLt
  have hy1 : (y 1).val < 8192 := (y 1).isLt
  refine out_congr ?_ ?_ ?_ ?_ ?_ ?_
  · funext z
    show V m c main_arg1 (((cfg0.win 1).blk t).view.emb z) = V m c main_arg1 z
    refine congrArg _ (funext fun a => Fin.ext ?_)
    match a with
    | ⟨0, _⟩ => show win0_1.index t (0 : Fin 2) * 64 + 1 * (z 0).val = (z 0).val; omega
    | ⟨1, _⟩ => show win0_1.index t (1 : Fin 2) * 64 + 1 * (z 1).val = (z 1).val; omega
  · funext z
    show V m c main_arg2 (((cfg0.win 2).blk t).view.emb z) = V m c main_arg2 z
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 64 + 1 * (z 1).val = (z 1).val; omega
  · funext z
    show V m c main_arg3 (((cfg0.win 3).blk t).view.emb z) = V m c main_arg3 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  · funext z
    show V m c main_arg4 (((cfg0.win 4).blk t).view.emb z) = V m c main_arg4 z
    refine congrArg _ (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  · funext a
    show V m c main_v0 (((cfg0.win 0).blk t).view.emb (ix2 a (y 1)))
      = V m c main_v0 (ix2 a ((((cfg0.win 5).blk t).view.emb y) 1))
    refine congrArg _ (funext fun ax => Fin.ext ?_)
    match ax with
    | ⟨0, _⟩ => show win0_0.index t (0 : Fin 2) * 64 + 1 * a.val = a.val; omega
    | ⟨1, _⟩ =>
      show win0_0.index t (1 : Fin 2) * 8192 + 1 * (y 1).val = win0_5.index t (1 : Fin 2) * 8192 + 1 * (y 1).val
      omega
  · refine Fin.ext ?_
    show (y 0).val = win0_5.index t (0 : Fin 2) * 64 + 1 * (y 0).val
    omega

/-- An index of the feature-first result is in point `t`'s block iff each coordinate is in the block's range. -/
theorem mem_block (t : Fin cfg0.N) (i : S64x16384.Idx) :
    i ∈ ((cfg0.win 5).blk t).view.set ↔ ∀ a : Fin 2, win0_5.index t a * S64x8192.size a ≤ (i a).val
      ∧ (i a).val < win0_5.index t a * S64x8192.size a + S64x8192.size a := by
  show i ∈ ((View.whole main_v1).slice (win0_5.rect t)).set ↔ _
  rw [View.set_slice_whole, Rect.mem_set_unit]
  exact Iff.rfl

/-- The two blocks tile the array: column b lies in the block of point b / 8192. -/
theorem covered (i : S64x16384.Idx) :
    ∃ t : Fin cfg0.N, (cfg0.win 5).flush t = true ∧ i ∈ ((cfg0.win 5).blk t).view.set := by
  have hi0 : (i 0).val < 64 := (i 0).isLt
  have hi1 : (i 1).val < 16384 := (i 1).isLt
  obtain ⟨t, ht⟩ := block_onto ⟨(i 1).val / 8192, by omega⟩
  have q0 : win0_5.index t (0 : Fin 2) = 0 := congrFun ht 0
  have q1 : win0_5.index t (1 : Fin 2) = (i 1).val / 8192 := congrFun ht 1
  refine ⟨t, flush0_5 t, ?_⟩
  rw [mem_block]
  intro a
  match a with
  | ⟨0, _⟩ =>
    show win0_5.index t (0 : Fin 2) * 64 ≤ (i 0).val ∧ (i 0).val < win0_5.index t (0 : Fin 2) * 64 + 64
    omega
  | ⟨1, _⟩ =>
    show win0_5.index t (1 : Fin 2) * 8192 ≤ (i 1).val ∧ (i 1).val < win0_5.index t (1 : Fin 2) * 8192 + 8192
    omega

/-- THE ARRAY after the region: the feature-first result. -/
theorem array_eq (c : Dev nD) : (dats m 0 c).arrAt 5 cfg0.N = resultT m c :=
  (dats m 0 c).arrAt_eq_of_cover 5 (resultT m c) (fun t _ => flushed_eq m c t) covered

/-- The region finds the transposed input where the program's first line put it. -/
theorem transposed_input (c : Dev nD) :
    (V m c main_v0 : S64x16384.Idx → EReal)
      = transpose S64x16384 [1, 0] (m ((c : Thread nD τ).loc main_arg0)) transposes_S16384x64_S64x16384_1_0 := by
  show StableHlo.after hostOps0 (fun b => m (c, b)) (Proc.devRef .tc main_v0) = _
  after_results <;> rfl

/-- THE RESULT after the last line: the three masked layers applied to the input row by row. -/
theorem result_eq (c : Dev nD) :
    Pipeline.afterTail₀ cfgs (dats m) 0 (V0 m) [hostOps1] c main_v2
      = byRows (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = resultT m c from (Pipeline.withArrays_arr spec0 launch0.win.arr_inj c _ _ 5).trans (array_eq m c)]
  unfold resultT
  rw [transposed_input, V_main_arg1, V_main_arg2, V_main_arg3, V_main_arg4]
  exact transpose_byColumns _ _ _ _ _ _ _

/-- THE RUN: every weakly fair execution terminates with the result array at `byRows` of the argument arrays and
    the argument arrays unchanged. -/
theorem run : θ_run defs (onTc (τ := τ) (main (F := Ideal))) ⟨m, fun _ => 0, ρ⟩ fun r => ∀ c : Dev nD,
      r.2.mem ((c.tc : Thread nD τ).loc main_v2)
        = byRows (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelArray

end
-- ==== Proof.lean ====
/- Three masked linear layers with two rectifiers, out = (mask · W₃ᵀ) relu((mask · W₂ᵀ) relu((mask · W₁ᵀ) xᵀ)) read
   back batch-first, on x : [16384, 64]: a kernel that transposes the input, runs the three products and the two
   rectifiers on two blocks of 8192 columns, and transposes the result back, against a reference that transposes around
   each of its three products.

   Over the extended reals both compute, at entry (b, j), output feature j of the three layers applied to input row b
   (Proof/MaskedLayers.lean): the same products, in the same order, summed over the same finite index sets; only the
   layout differs.  So no law of arithmetic is needed beyond reading each side at an entry, and the precondition is
   never opened.  Proof/ReferenceLayers.lean reads the reference's stages at an entry, Proof/KernelBlock.lean the
   kernel body's stored value, Proof/KernelArray.lean takes the kernel's blocks to its result array and through the
   final transpose.  The frames of the two kernel programs are the generated ones; the reference's frame is its
   generated run; the kernel's idealization rewrote nothing. -/
import proofs.«130894_g27573690040596_cont_9to1_2209_8_alg».proof.Defs
import proofs.«130894_g27573690040596_cont_9to1_2209_8_alg».proof.Proof.Gen.Kernel
import proofs.«130894_g27573690040596_cont_9to1_2209_8_alg».proof.Proof.Gen.Kernel.Skeleton
import proofs.«130894_g27573690040596_cont_9to1_2209_8_alg».proof.Proof.Gen.Kernel.Launch
import proofs.«130894_g27573690040596_cont_9to1_2209_8_alg».proof.Proof.Gen.Kernel.Points
import proofs.«130894_g27573690040596_cont_9to1_2209_8_alg».proof.Proof.Gen.Kernel.Frame
import proofs.«130894_g27573690040596_cont_9to1_2209_8_alg».proof.Proof.Gen.KernelIdeal
import proofs.«130894_g27573690040596_cont_9to1_2209_8_alg».proof.Proof.Gen.KernelIdeal.Skeleton
import proofs.«130894_g27573690040596_cont_9to1_2209_8_alg».proof.Proof.Gen.KernelIdeal.Launch
import proofs.«130894_g27573690040596_cont_9to1_2209_8_alg».proof.Proof.Gen.KernelIdeal.Points
import proofs.«130894_g27573690040596_cont_9to1_2209_8_alg».proof.Proof.Gen.KernelIdeal.Frame
import proofs.«130894_g27573690040596_cont_9to1_2209_8_alg».proof.Proof.Gen.ReferenceIdeal
import proofs.«130894_g27573690040596_cont_9to1_2209_8_alg».proof.Proof.Gen.ReferenceIdeal.Run
import proofs.«130894_g27573690040596_cont_9to1_2209_8_alg».proof.Proof.Gen.ReferenceIdeal.Read
import proofs.«130894_g27573690040596_cont_9to1_2209_8_alg».proof.Proof.Gen.Pre_finite_inputs
import proofs.«130894_g27573690040596_cont_9to1_2209_8_alg».proof.Proof.ReferenceLayers
import proofs.«130894_g27573690040596_cont_9to1_2209_8_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the three masked layers applied row by row to the same argument arrays. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceLayers.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
